-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x28 : Shape := ⟨2, ![262144, 28]⟩
abbrev S10x28 : Shape := ⟨2, ![10, 28]⟩
abbrev S1x10 : Shape := ⟨2, ![1, 10]⟩
abbrev S_ : Shape := ⟨0, ![]⟩

class Facts : Prop where
  bcast_S_S262144x28 : S_.BroadcastsInDim S262144x28 (![] : Fin 0 → Fin S262144x28.rank)
  reducesTo_S262144x28_S_d0_1 : S262144x28.ReducesTo [0, 1] S_
  h_S_ : 0 < S_.numel
  bcast_S_S10x28 : S_.BroadcastsInDim S10x28 (![] : Fin 0 → Fin S10x28.rank)
  reducesTo_S10x28_S_d0_1 : S10x28.ReducesTo [0, 1] S_
  bcast_S_S1x10 : S_.BroadcastsInDim S1x10 (![] : Fin 0 → Fin S1x10.rank)
  reducesTo_S1x10_S_d0_1 : S1x10.ReducesTo [0, 1] S_

variable [Facts]

def fn {F : FTy → Type} [FloatOps F] (main_arg0 : FVec F S262144x28 .f32) (main_arg1 : FVec F S10x28 .f32) (main_arg2 : FVec F S1x10 .f32) : IVec S_ 1 :=
  let main_v0 : FVec F S262144x28 .f32 := Host.absf main_arg0
  let main_cst : FVec F S_ .f32 := constant S_ .f32 0x7F800000#32
  let main_v1 : FVec F S262144x28 .f32 := broadcastInDim S262144x28 ![] bcast_S_S262144x28 main_cst
  let main_v2 : IVec S262144x28 1 := cmpf .olt main_v0 main_v1
  let main_c : IVec S_ 1 := constantI S_ 1 1#1
  let main_v3 : IVec S_ 1 := (fun x v => Host.reduce IntOp.andi x v reducesTo_S262144x28_S_d0_1 h_S_) main_v2 main_c
  let main_v4 : FVec F S10x28 .f32 := Host.absf main_arg1
  let main_cst_0 : FVec F S_ .f32 := constant S_ .f32 0x7F800000#32
  let main_v5 : FVec F S10x28 .f32 := broadcastInDim S10x28 ![] bcast_S_S10x28 main_cst_0
  let main_v6 : IVec S10x28 1 := cmpf .olt main_v4 main_v5
  let main_c_1 : IVec S_ 1 := constantI S_ 1 1#1
  let main_v7 : IVec S_ 1 := (fun x v => Host.reduce IntOp.andi x v reducesTo_S10x28_S_d0_1 h_S_) main_v6 main_c_1
  let main_v8 : IVec S_ 1 := andi main_v3 main_v7
  let main_v9 : FVec F S1x10 .f32 := Host.absf main_arg2
  let main_cst_2 : FVec F S_ .f32 := constant S_ .f32 0x7F800000#32
  let main_v10 : FVec F S1x10 .f32 := broadcastInDim S1x10 ![] bcast_S_S1x10 main_cst_2
  let main_v11 : IVec S1x10 1 := cmpf .olt main_v9 main_v10
  let main_c_3 : IVec S_ 1 := constantI S_ 1 1#1
  let main_v12 : IVec S_ 1 := (fun x v => Host.reduce IntOp.andi x v reducesTo_S1x10_S_d0_1 h_S_) main_v11 main_c_3
  let main_v13 : IVec S_ 1 := andi main_v8 main_v12
  main_v13
-- ==== Kernel.lean ====
abbrev S262144x28 : Shape := ⟨2, ![262144, 28]⟩
abbrev S10x28 : Shape := ⟨2, ![10, 28]⟩
abbrev S1x10 : Shape := ⟨2, ![1, 10]⟩
abbrev S4096x1792 : Shape := ⟨2, ![4096, 1792]⟩
abbrev S64x64 : Shape := ⟨2, ![64, 64]⟩
abbrev S_ : Shape := ⟨0, ![]⟩
abbrev S28x10 : Shape := ⟨2, ![28, 10]⟩
abbrev S64x1x64x1 : Shape := ⟨4, ![64, 1, 64, 1]⟩
abbrev S1x28x1x10 : Shape := ⟨4, ![1, 28, 1, 10]⟩
abbrev S64x28x64x10 : Shape := ⟨4, ![64, 28, 64, 10]⟩
abbrev S1792x640 : Shape := ⟨2, ![1792, 640]⟩
abbrev S1x1x1x10 : Shape := ⟨4, ![1, 1, 1, 10]⟩
abbrev S1x1x64x10 : Shape := ⟨4, ![1, 1, 64, 10]⟩
abbrev S1x640 : Shape := ⟨2, ![1, 640]⟩
abbrev S4096x640 : Shape := ⟨2, ![4096, 640]⟩
abbrev S262144x10 : Shape := ⟨2, ![262144, 10]⟩
abbrev S512x1792 : Shape := ⟨2, ![512, 1792]⟩
abbrev S512x640 : Shape := ⟨2, ![512, 640]⟩

abbrev nBuf : Space → Nat
  | .hbm => 23
  | .vmem => 6
  | .smem => 0
  | _ => 0

abbrev bufTy : (tb : Table) → Fin (tcTables nBuf tb) → BufTy
  | .hbm, ⟨0, _⟩ => ⟨S262144x28, .f32⟩
  | .hbm, ⟨1, _⟩ => ⟨S10x28, .f32⟩
  | .hbm, ⟨2, _⟩ => ⟨S1x10, .f32⟩
  | .hbm, ⟨3, _⟩ => ⟨S4096x1792, .f32⟩
  | .hbm, ⟨4, _⟩ => ⟨S64x64, .i32⟩
  | .hbm, ⟨5, _⟩ => ⟨S64x64, .i32⟩
  | .hbm, ⟨6, _⟩ => ⟨S_, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S64x64, .f32⟩
  | .hbm, ⟨11, _⟩ => ⟨S28x10, .f32⟩
  | .hbm, ⟨12, _⟩ => ⟨S64x1x64x1, .f32⟩
  | .hbm, ⟨13, _⟩ => ⟨S1x28x1x10, .f32⟩
  | .hbm, ⟨14, _⟩ => ⟨S64x28x64x10, .f32⟩
  | .hbm, ⟨15, _⟩ => ⟨S64x28x64x10, .f32⟩
  | .hbm, ⟨16, _⟩ => ⟨S64x28x64x10, .f32⟩
  | .hbm, ⟨17, _⟩ => ⟨S1792x640, .f32⟩
  | .hbm, ⟨18, _⟩ => ⟨S1x1x1x10, .f32⟩
  | .hbm, ⟨19, _⟩ => ⟨S1x1x64x10, .f32⟩
  | .hbm, ⟨20, _⟩ => ⟨S1x640, .f32⟩
  | .hbm, ⟨21, _⟩ => ⟨S4096x640, .f32⟩
  | .hbm, ⟨22, _⟩ => ⟨S262144x10, .f32⟩
  | .local _ .vmem, ⟨0, _⟩ => ⟨S512x1792, .f32⟩
  | .local _ .vmem, ⟨1, _⟩ => ⟨S512x1792, .f32⟩
  | .local _ .vmem, ⟨2, _⟩ => ⟨S1792x640, .f32⟩
  | .local _ .vmem, ⟨3, _⟩ => ⟨S1x640, .f32⟩
  | .local _ .vmem, ⟨4, _⟩ => ⟨S512x640, .f32⟩
  | .local _ .vmem, ⟨5, _⟩ => ⟨S512x640, .f32⟩
  | _, _ => ⟨S262144x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_c : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_call0_v0 : Ref sig .tc := ⟨.hbm, 12, rfl⟩
abbrev main_call0_call0_v1 : Ref sig .tc := ⟨.hbm, 13, rfl⟩
abbrev main_call0_call0_v2 : Ref sig .tc := ⟨.hbm, 14, rfl⟩
abbrev main_call0_call0_v3 : Ref sig .tc := ⟨.hbm, 15, rfl⟩
abbrev main_call0_call0_v4 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x28_S4096x1792 : S262144x28.ShapeCasts S4096x1792
  bcast_S_S64x64 : S_.BroadcastsInDim S64x64 (![] : Fin 0 → Fin S64x64.rank)
  transposes_S10x28_S28x10_1_0 : S10x28.Transposes [1, 0] S28x10
  bcast_S64x64_S64x1x64x1_0_2 : S64x64.BroadcastsInDim S64x1x64x1 (![0, 2] : Fin 2 → Fin S64x1x64x1.rank)
  bcast_S28x10_S1x28x1x10_1_3 : S28x10.BroadcastsInDim S1x28x1x10 (![1, 3] : Fin 2 → Fin S1x28x1x10.rank)
  bcast_S64x1x64x1_S64x28x64x10_0_1_2_3 : S64x1x64x1.BroadcastsInDim S64x28x64x10 (![0, 1, 2, 3] : Fin 4 → Fin S64x28x64x10.rank)
  bcast_S1x28x1x10_S64x28x64x10_0_1_2_3 : S1x28x1x10.BroadcastsInDim S64x28x64x10 (![0, 1, 2, 3] : Fin 4 → Fin S64x28x64x10.rank)
  shapeCasts_S64x28x64x10_S1792x640 : S64x28x64x10.ShapeCasts S1792x640
  shapeCasts_S1x10_S1x1x1x10 : S1x10.ShapeCasts S1x1x1x10
  bcast_S1x1x1x10_S1x1x64x10_0_1_2_3 : S1x1x1x10.BroadcastsInDim S1x1x64x10 (![0, 1, 2, 3] : Fin 4 → Fin S1x1x64x10.rank)
  shapeCasts_S1x1x64x10_S1x640 : S1x1x64x10.ShapeCasts S1x640
  shapeCasts_S4096x640_S262144x10 : S4096x640.ShapeCasts S262144x10
  inb_S512x1792_S512x1792_0_0 : ∀ a, (![0, 0] : Fin 2 → Nat) a + S512x1792.size a ≤ S512x1792.size a
  h_S512x1792 : 0 < S512x1792.numel
  shapeCasts_S512x1792_S512x1792 : S512x1792.ShapeCasts S512x1792
  inb_S1792x640_S1792x640_0_0 : ∀ a, (![0, 0] : Fin 2 → Nat) a + S1792x640.size a ≤ S1792x640.size a
  h_S1792x640 : 0 < S1792x640.numel
  shapeCasts_S1792x640_S1792x640 : S1792x640.ShapeCasts S1792x640
  inb_S1x640_S1x640_0_0 : ∀ a, (![0, 0] : Fin 2 → Nat) a + S1x640.size a ≤ S1x640.size a
  h_S1x640 : 0 < S1x640.numel
  broadcasts_S1x640_S512x640 : S1x640.Broadcasts S512x640
  inb_S512x640_S512x640_0_0 : ∀ a, (![0, 0] : Fin 2 → Nat) a + S512x640.size a ≤ S512x640.size a
  h_S512x640 : 0 < S512x640.numel
  dot_S512x1792_S1792x640_S512x640_1_0_0_1_n_n_wf : DotDims.WF S512x1792 S1792x640 S512x640 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1792.size a ≤ S4096x1792.size a
  hwx0_0 : ∀ i : grid0.Coords, EltTy.bits .f32 = 32 ∨ (Rect.block (s := S4096x1792) S512x1792.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1792x640.size a ≤ S1792x640.size a
  hwx0_1 : ∀ i : grid0.Coords, EltTy.bits .f32 = 32 ∨ (Rect.block (s := S1792x640) S1792x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S4096x640.size a
  hwx0_3 : ∀ i : grid0.Coords, EltTy.bits .f32 = 32 ∨ (Rect.block (s := S4096x640) S512x640.size (cc0_transform_3 i) (hinb0_3 i)).WholeWords (EltTy.packing .f32)

variable [Facts₀]

def dot_S512x1792_S1792x640_S512x640_1_0_0_1_n_n : DotDims S512x1792 S1792x640 S512x640 where
  lhsContracting := [1]
  rhsContracting := [0]
  lhsNonContracting := [0]
  rhsNonContracting := [1]
  lhsBatch := []
  rhsBatch := []
  wf := dot_S512x1792_S1792x640_S512x640_1_0_0_1_n_n_wf

abbrev win0_0 : Pipeline.Window sig grid0 :=
  Pipeline.Window.ofSpec (Memref.whole main_call0_v0) S512x1792.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v8) S1792x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v11) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v12) S512x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x28 : Shape := ⟨2, ![262144, 28]⟩
abbrev S10x28 : Shape := ⟨2, ![10, 28]⟩
abbrev S1x10 : Shape := ⟨2, ![1, 10]⟩
abbrev S262144x10 : Shape := ⟨2, ![262144, 10]⟩
abbrev S2048x28 : Shape := ⟨2, ![2048, 28]⟩
abbrev S2048x10 : Shape := ⟨2, ![2048, 10]⟩

abbrev nBuf : Space → Nat
  | .hbm => 4
  | .vmem => 6
  | .smem => 0
  | _ => 0

abbrev bufTy : (tb : Table) → Fin (tcTables nBuf tb) → BufTy
  | .hbm, ⟨0, _⟩ => ⟨S262144x28, .f32⟩
  | .hbm, ⟨1, _⟩ => ⟨S10x28, .f32⟩
  | .hbm, ⟨2, _⟩ => ⟨S1x10, .f32⟩
  | .hbm, ⟨3, _⟩ => ⟨S262144x10, .f32⟩
  | .local _ .vmem, ⟨0, _⟩ => ⟨S2048x28, .f32⟩
  | .local _ .vmem, ⟨1, _⟩ => ⟨S2048x28, .f32⟩
  | .local _ .vmem, ⟨2, _⟩ => ⟨S10x28, .f32⟩
  | .local _ .vmem, ⟨3, _⟩ => ⟨S1x10, .f32⟩
  | .local _ .vmem, ⟨4, _⟩ => ⟨S2048x10, .f32⟩
  | .local _ .vmem, ⟨5, _⟩ => ⟨S2048x10, .f32⟩
  | _, _ => ⟨S262144x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x28 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x28_S2048x28_0_0 : ∀ a, (![0, 0] : Fin 2 → Nat) a + S2048x28.size a ≤ S2048x28.size a
  h_S2048x28 : 0 < S2048x28.numel
  inb_S10x28_S10x28_0_0 : ∀ a, (![0, 0] : Fin 2 → Nat) a + S10x28.size a ≤ S10x28.size a
  h_S10x28 : 0 < S10x28.numel
  inb_S1x10_S1x10_0_0 : ∀ a, (![0, 0] : Fin 2 → Nat) a + S1x10.size a ≤ S1x10.size a
  h_S1x10 : 0 < S1x10.numel
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x28_S10x28_S2048x10_1_1_0_0_n_n_wf : DotDims.WF S2048x28 S10x28 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x28.size a ≤ S262144x28.size a
  hwx0_0 : ∀ i : grid0.Coords, EltTy.bits .f32 = 32 ∨ (Rect.block (s := S262144x28) S2048x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x28.size a ≤ S10x28.size a
  hwx0_1 : ∀ i : grid0.Coords, EltTy.bits .f32 = 32 ∨ (Rect.block (s := S10x28) S10x28.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x10.size a ≤ S262144x10.size a
  hwx0_3 : ∀ i : grid0.Coords, EltTy.bits .f32 = 32 ∨ (Rect.block (s := S262144x10) S2048x10.size (cc0_transform_3 i) (hinb0_3 i)).WholeWords (EltTy.packing .f32)

variable [Facts₀]

def dot_S2048x28_S10x28_S2048x10_1_1_0_0_n_n : DotDims S2048x28 S10x28 S2048x10 where
  lhsContracting := [1]
  rhsContracting := [1]
  lhsNonContracting := [0]
  rhsNonContracting := [0]
  lhsBatch := []
  rhsBatch := []
  wf := dot_S2048x28_S10x28_S2048x10_1_1_0_0_n_n_wf

abbrev win0_0 : Pipeline.Window sig grid0 :=
  Pipeline.Window.ofSpec (Memref.whole main_arg0) S2048x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x28.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2048x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== Proof.Affine.lean ====
/-
  The value both programs compute, on the extended reals: row `n` of the batch against row `o` of the weight, plus
  the bias, `out[n, o] = (∑ k < 28, x[n, k] · w[o, k]) + b[0, o]`; and the law that folds a contraction over the
  1792 = 64 · 28 lanes of a packed row against a block-diagonal weight back to those 28 terms: lane `p · 28 + i`
  carries feature `i` of the `p`-th of 64 packed rows, the weight's entry there is `δ(p, q) · w[i]`, and a product
  with the zero of the extended reals is zero, with the one the other factor, so only the block `p = q` is left.
-/
import Idealize.ShloMosaic.PureOps.Ideal
import Idealize.ShloMosaic.Lib.ValueIdx

noncomputable section

open scoped BigOperators

namespace Cert.Affine

open Idealize.ShloMosaic Idealize.ShloMosaic.ValueIdx

/-- `(∑ k < 28, x[n, k] · w[o, k]) + b[0, o]`. -/
def affineAt (x : (⟨2, ![262144, 28]⟩ : Shape).Idx → EReal) (w : (⟨2, ![10, 28]⟩ : Shape).Idx → EReal)
    (b : (⟨2, ![1, 10]⟩ : Shape).Idx → EReal) (n : Fin 262144) (o : Fin 10) : EReal :=
  (∑ k : Fin 28, x (ix2 n k) * w (ix2 o k)) + b (ix2 (0 : Fin 1) o)

/-- The whole result array: `affineAt` at the index's two coordinates. -/
def affine (x : (⟨2, ![262144, 28]⟩ : Shape).Idx → EReal) (w : (⟨2, ![10, 28]⟩ : Shape).Idx → EReal)
    (b : (⟨2, ![1, 10]⟩ : Shape).Idx → EReal) : (⟨2, ![262144, 10]⟩ : Shape).Idx → EReal :=
  fun i => affineAt x w b (i 0) (i 1)

/-- A lane of a packed row is a pair (which of the 64 packed rows, which of its 28 features): `k = p · 28 + i`. -/
def laneEquiv : Fin 64 × Fin 28 ≃ Fin 1792 where
  toFun pi := ⟨pi.1.val * 28 + pi.2.val, by have := pi.1.isLt; have := pi.2.isLt; omega⟩
  invFun k := (⟨k.val / 28, by have := k.isLt; omega⟩, ⟨k.val % 28, by omega⟩)
  left_inv := fun ⟨p, i⟩ => Prod.ext (Fin.ext (by have := i.isLt; show (p.val * 28 + i.val) / 28 = p.val; omega))
    (Fin.ext (by have := i.isLt; show (p.val * 28 + i.val) % 28 = i.val; omega))
  right_inv := fun k => Fin.ext (by show k.val / 28 * 28 + k.val % 28 = k.val; omega)

theorem laneEquiv_val (p : Fin 64) (i : Fin 28) : (laneEquiv (p, i)).val = p.val * 28 + i.val := rfl

/-- THE LAW. A sum over the 1792 lanes of `X k · D k`, where on lane `(p, i)` the second factor is `δ(p, q) · W i`
    and on the lanes `(q, i)` of block `q` the first factor is `Y i`, is `∑ i < 28, Y i · W i`: the other 63 blocks'
    terms are products with zero. Holds on all extended reals (`x · 0 = 0` there without exception). -/
theorem packed_sum (X D : Fin 1792 → EReal) (q : Fin 64) (Y W : Fin 28 → EReal)
    (hX : ∀ i : Fin 28, X (laneEquiv (q, i)) = Y i)
    (hD : ∀ (p : Fin 64) (i : Fin 28), D (laneEquiv (p, i)) = (if p = q then (1 : EReal) else 0) * W i) :
    ∑ k : Fin 1792, X k * D k = ∑ i : Fin 28, Y i * W i := by
  rw [← Equiv.sum_comp laneEquiv, Fintype.sum_prod_type, Finset.sum_eq_single q]
  · refine Finset.sum_congr rfl fun i _ => ?_
    rw [hX, hD, if_pos rfl, one_mul]
  · intro p _ hp
    refine Finset.sum_eq_zero fun i _ => ?_
    rw [hD, if_neg hp, zero_mul, mul_zero]
  · intro h; exact absurd (Finset.mem_univ q) h

end Cert.Affine

end
-- ==== Proof.RefBody.lean ====
/-
  The reference kernel's block arithmetic read at one element: the `tpu.matmul` of a [2048, 28] block of rows with the
  [10, 28] weight, contracting the LAST axis of both, into a zero accumulator is at (r, o) the 28-term sum
  `∑ k, rows[r, k] · weight[o, k]`; the bias row broadcast down the block adds `bias[0, o]`.
-/
import proofs.«103029_g2000603537656407_pallasbulk_887_2_alg».proof.Proof.Gen.ReferenceIdeal.Skeleton
import Idealize.ShloMosaic.PureOps.Ideal.Laws
import Idealize.ShloMosaic.Lib.ValueIdx
import Idealize.ShloMosaic.Lib.Pipeline.Value

noncomputable section

open scoped BigOperators

namespace Cert.ReferenceIdeal.Body

open Cert.ReferenceIdeal Cert.ReferenceIdeal.Gen Idealize.ShloMosaic Idealize.ShloMosaic.ValueIdx

/-- The contraction's dimension numbers: left axis 1 against right axis 1; result axes (left 0, right 0). -/
abbrev dims := dot_S2048x28_S10x28_S2048x10_1_1_0_0_n_n

theorem lhs_row (j : S2048x10.Idx) (q : dims.contr.Idx) : (dims.lhsIdx j q 0).val = (j 0).val := by
  unfold DotDims.lhsIdx
  rw [dif_neg (show ¬(0 : Fin S2048x28.rank) ∈ dims.lhsBatch by decide), dif_pos (show (0 : Fin S2048x28.rank) ∈ dims.lhsNonContracting by decide)]
  rfl
theorem lhs_contr (j : S2048x10.Idx) (q : dims.contr.Idx) : (dims.lhsIdx j q 1).val = (q ⟨0, by decide⟩).val :=
  dims.lhsIdx_val_of_single rfl j q
theorem rhs_row (j : S2048x10.Idx) (q : dims.contr.Idx) : (dims.rhsIdx j q 0).val = (j 1).val := by
  unfold DotDims.rhsIdx
  rw [dif_neg (show ¬(0 : Fin S10x28.rank) ∈ dims.rhsBatch by decide), dif_pos (show (0 : Fin S10x28.rank) ∈ dims.rhsNonContracting by decide)]
  rfl
theorem rhs_contr (j : S2048x10.Idx) (q : dims.contr.Idx) : (dims.rhsIdx j q 1).val = (q ⟨0, by decide⟩).val :=
  dims.rhsIdx_val_of_single rfl j q

/-- The stored value at element (r, o) of the block. -/
theorem pay_apply (x0 : FVec Ideal S2048x28 .f32) (x1 : FVec Ideal S10x28 .f32) (x2 : FVec Ideal S1x10 .f32) (r : Fin 2048) (o : Fin 10) :
    k0_pay1 (F := Ideal) x0 x1 x2 (ix2 r o) = (∑ k : Fin 28, x0 (ix2 r k) * x1 (ix2 o k)) + x2 (ix2 (0 : Fin 1) o) := by
  unfold k0_pay1
  show (matmul dims none x0 x1 (constant (F := Ideal) S2048x10 .f32 0x00000000#32)) (ix2 r o)
      + (broadcastTo S2048x10 x2 broadcasts_S1x10_S2048x10) (ix2 r o) = _
  refine congrArg₂ (· + ·) ?_ ?_
  · refine (Ideal.matmul_constant_zero_apply dims none x0 x1 (ix2 r o)).trans ?_
    rw [← Equiv.sum_comp (contrEquiv1 dims 28 rfl rfl).symm]
    refine Finset.sum_congr rfl fun k _ => ?_
    have hk := contrEquiv1_symm_val dims 28 rfl rfl k
    have el : dims.lhsIdx (ix2 r o) ((contrEquiv1 dims 28 rfl rfl).symm k) = ix2 r k := funext fun a => Fin.ext (by
      match a with
      | ⟨0, _⟩ => exact lhs_row _ _
      | ⟨1, _⟩ => exact (lhs_contr _ _).trans hk)
    have er : dims.rhsIdx (ix2 r o) ((contrEquiv1 dims 28 rfl rfl).symm k) = ix2 o k := funext fun a => Fin.ext (by
      match a with
      | ⟨0, _⟩ => exact rhs_row _ _
      | ⟨1, _⟩ => exact (rhs_contr _ _).trans hk)
    rw [el, er]
  · exact broadcastTo_apply x2 broadcasts_S1x10_S2048x10 (ix2 r o) (ix2 (0 : Fin 1) o) (fun a => by
      match a with
      | ⟨0, _⟩ => rfl
      | ⟨1, _⟩ => rfl)

end Cert.ReferenceIdeal.Body

end
-- ==== Proof.RefArray.lean ====
/-
  The reference program's result array. Its one kernel walks the batch in 128 blocks of 2048 rows; at block `t` it reads
  rows `2048 t … 2048 t + 2047` of `x`, the whole weight and the whole bias, and writes rows `2048 t …` of the result. So
  what block `t` writes back is block `t` of the ONE function `affine x w b`, the 128 blocks cover the result, and the
  array after the run is `affine x w b`.
-/
import proofs.«103029_g2000603537656407_pallasbulk_887_2_alg».proof.Defs
import proofs.«103029_g2000603537656407_pallasbulk_887_2_alg».proof.Proof.Gen.ReferenceIdeal.Value
import proofs.«103029_g2000603537656407_pallasbulk_887_2_alg».proof.Proof.Affine
import proofs.«103029_g2000603537656407_pallasbulk_887_2_alg».proof.Proof.RefBody

noncomputable section

open scoped BigOperators

namespace Cert.ReferenceIdeal.Arr

open Cert.ReferenceIdeal Cert.ReferenceIdeal.Gen Cert.ReferenceIdeal.Value Idealize.ShloMosaic Idealize.ShloMosaic.TcCoe Idealize.SL.Sem
open Idealize.ShloMosaic.Pipeline (Dat)
open Idealize.ShloMosaic.ValueIdx Cert.Affine

variable (m : (ℓ : Loc nD τ sig) → Buf (Elt Ideal) ℓ) (ρ : Dev nD → PrngReg)

theorem zeros : (![0, 0] : Fin 2 → Nat) = fun _ => 0 := funext fun a => by fin_cases a <;> rfl

/-- The result as one function of the three argument arrays. -/
abbrev whole (c : Dev nD) : S262144x10.Idx → Elt Ideal .f32 :=
  affine (m ((c : Thread nD τ).loc main_arg0)) (m ((c : Thread nD τ).loc main_arg1)) (m ((c : Thread nD τ).loc main_arg2))

/-- The block indices over the 128 grid points: the rows' and the result's block is the point, the weight's and the
    bias's always block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Element (r, k) of the rows' block at point `t` is `x[2048 t + r, k]`. -/
theorem rows_apply (c : Dev nD) (t : Fin cfg0.N) (y : S2048x28.Idx) (i : S262144x28.Idx)
    (h0 : (i 0).val = t.val * 2048 + (y 0).val) (h1 : (i 1).val = (y 1).val) :
    (iblk m c 0 t : Vec Ideal S2048x28 .f32) y = (m ((c : Thread nD τ).loc main_arg0) : S262144x28.Idx → Elt Ideal .f32) i := by
  obtain ⟨e0, e1, -⟩ := block_index t
  unfold iblk
  rw [View.read_apply]
  show V m c main_arg0 _ = m (c.tc.loc main_arg0) _
  unfold V
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 28 + 1 * (y 1).val = (i 1).val; rw [e1, h1]; omega

/-- The weight's block at every point is the weight. -/
theorem weight_apply (c : Dev nD) (t : Fin cfg0.N) (y : S10x28.Idx) :
    (iblk m c 1 t : Vec Ideal S10x28 .f32) y = (m ((c : Thread nD τ).loc main_arg1) : S10x28.Idx → Elt Ideal .f32) y := by
  obtain ⟨-, -, e0, e1, -⟩ := block_index t
  unfold iblk
  rw [View.read_apply]
  show V m c main_arg1 _ = m (c.tc.loc main_arg1) _
  unfold V
  congr 1
  funext a
  apply Fin.ext
  match a with
  | ⟨0, _⟩ => show win0_1.index t (0 : Fin 2) * 10 + 1 * (y 0).val = (y 0).val; rw [e0]; omega
  | ⟨1, _⟩ => show win0_1.index t (1 : Fin 2) * 28 + 1 * (y 1).val = (y 1).val; rw [e1]; omega

/-- The bias's block at every point is the bias. -/
theorem bias_apply (c : Dev nD) (t : Fin cfg0.N) (y : S1x10.Idx) :
    (iblk m c 2 t : Vec Ideal S1x10 .f32) y = (m ((c : Thread nD τ).loc main_arg2) : S1x10.Idx → Elt Ideal .f32) y := by
  obtain ⟨-, -, -, -, e0, e1, -⟩ := block_index t
  unfold iblk
  rw [View.read_apply]
  show V m c main_arg2 _ = m (c.tc.loc main_arg2) _
  unfold V
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 10 + 1 * (y 1).val = (y 1).val; rw [e1]; omega

/-- The body's stored value on blocks that are rows `base …` of `X`, the whole of `W` and the whole of `B`, at element
    `j`, is `affine X W B` at row `base + j 0`, column `j 1`. -/
theorem stored_eq (x0 : FVec Ideal S2048x28 .f32) (x1 : FVec Ideal S10x28 .f32) (x2 : FVec Ideal S1x10 .f32)
    (X : S262144x28.Idx → EReal) (W : S10x28.Idx → EReal) (B : S1x10.Idx → EReal)
    (j : S2048x10.Idx) (i : S262144x10.Idx)
    (hx : ∀ k : Fin 28, x0 (ix2 (j 0) k) = X (ix2 (i 0) k)) (hw : ∀ k : Fin 28, x1 (ix2 (j 1) k) = W (ix2 (i 1) k))
    (hb : x2 (ix2 (0 : Fin 1) (j 1)) = B (ix2 (0 : Fin 1) (i 1))) :
    k0_pay1 (F := Ideal) x0 x1 x2 j = affine X W B i := by
  rw [eq_ix2 j]
  refine (Body.pay_apply x0 x1 x2 (j 0) (j 1)).trans ?_
  unfold affine affineAt
  rw [hb]
  exact congrArg (· + _) (Finset.sum_congr rfl fun k _ => by rw [hx k, hw k])

/-- WHAT POINT `t` WRITES BACK is block `t` of `whole`. -/
theorem flushed_eq (c : Dev nD) (t : Fin cfg0.N) :
    (dats m 0 c).flushed 3 t = ((cfg0.win 3).blk t).view.read (Elt Ideal) (whole m c) := by
  rw [flushed3]
  unfold out0_3
  rw [View.canon_unit_zero zeros]
  simp only [View.ld_unit_zero (S := S2048x28) zeros, View.ld_unit_zero (S := S10x28) zeros, View.ld_unit_zero (S := S1x10) zeros]
  obtain ⟨-, -, -, -, -, -, e0, e1⟩ := block_index t
  funext j
  show k0_pay1 (F := Ideal) (iblk m c 0 t) (iblk m c 1 t) (iblk m c 2 t) j = whole m c (((cfg0.win 3).blk t).view.emb j)
  have c0 : ((((cfg0.win 3).blk t).view.emb j) 0).val = t.val * 2048 + (j 0).val := by
    show win0_3.index t (0 : Fin 2) * 2048 + 1 * (j 0).val = _; rw [e0]; omega
  have c1 : ((((cfg0.win 3).blk t).view.emb j) 1).val = (j 1).val := by
    show win0_3.index t (1 : Fin 2) * 10 + 1 * (j 1).val = _; rw [e1]; omega
  refine stored_eq (iblk m c 0 t) (iblk m c 1 t) (iblk m c 2 t) (m ((c : Thread nD τ).loc main_arg0)) (m ((c : Thread nD τ).loc main_arg1)) (m ((c : Thread nD τ).loc main_arg2)) j (((cfg0.win 3).blk t).view.emb j) ?_ ?_ ?_
  · intro k
    exact rows_apply m c t (ix2 (j 0) k) (ix2 ((((cfg0.win 3).blk t).view.emb j) 0) k) c0 rfl
  · intro k
    refine (weight_apply m c t (ix2 (j 1) k)).trans (congrArg _ ?_)
    funext a; apply Fin.ext
    match a with
    | ⟨0, _⟩ => exact c1.symm
    | ⟨1, _⟩ => rfl
  · refine (bias_apply m c t (ix2 (0 : Fin 1) (j 1))).trans (congrArg _ ?_)
    funext a; apply Fin.ext
    match a with
    | ⟨0, _⟩ => rfl
    | ⟨1, _⟩ => exact c1.symm

/-- An index of the result is in point `t`'s block iff each coordinate is in the block's range on its axis. -/
theorem mem_block (t : Fin cfg0.N) (i : S262144x10.Idx) :
    i ∈ ((cfg0.win 3).blk t).view.set ↔ ∀ a : Fin 2, win0_3.index t a * S2048x10.size a ≤ (i a).val ∧ (i a).val < win0_3.index t a * S2048x10.size a + S2048x10.size a := by
  show i ∈ ((View.whole main_v0).slice (win0_3.rect t)).set ↔ _
  rw [View.set_slice_whole, Rect.mem_set_unit]
  exact Iff.rfl

/-- Row `n` of the result lies in the block of point `n / 2048`. -/
theorem covered (i : S262144x10.Idx) : ∃ t : Fin cfg0.N, (cfg0.win 3).flush t = true ∧ i ∈ ((cfg0.win 3).blk t).view.set := by
  have hN : cfg0.N = 128 := N_0
  have hi0 : (i 0).val < 262144 := (i 0).isLt
  have hi1 : (i 1).val < 10 := (i 1).isLt
  refine ⟨⟨(i 0).val / 2048, by rw [hN]; omega⟩, flush0_3 _, ?_⟩
  rw [mem_block]
  obtain ⟨-, -, -, -, -, -, e0, e1⟩ := block_index ⟨(i 0).val / 2048, by rw [hN]; omega⟩
  intro a
  match a with
  | ⟨0, _⟩ =>
    show win0_3.index _ (0 : Fin 2) * 2048 ≤ (i 0).val ∧ (i 0).val < win0_3.index _ (0 : Fin 2) * 2048 + 2048
    rw [e0]; show (i 0).val / 2048 * 2048 ≤ (i 0).val ∧ (i 0).val < (i 0).val / 2048 * 2048 + 2048; omega
  | ⟨1, _⟩ =>
    show win0_3.index _ (1 : Fin 2) * 10 ≤ (i 1).val ∧ (i 1).val < win0_3.index _ (1 : Fin 2) * 10 + 10
    rw [e1]; omega

/-- THE ARRAY after the run is `whole`. -/
theorem final (c : Dev nD) : (dats m 0 c).arrAt 3 cfg0.N = whole m c :=
  (dats m 0 c).arrAt_eq_of_cover 3 (whole m c) (fun t _ => flushed_eq m c t) covered

/-- The run, read: the result array at `affine` of the argument arrays, the arguments unchanged. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.ReferenceIdeal.Arr

end
-- ==== Proof.KernelBody.lean ====
/-
  The packed kernel's block arithmetic read at one element: the `tpu.matmul` of a [512, 1792] block of packed rows with
  the [1792, 640] block-diagonal weight, contracting the left operand's lanes against the right operand's rows, into
  a zero accumulator is at (r, c) the 1792-term sum `∑ k, packed[r, k] · wide[k, c]`; the tiled bias row broadcast down
  the block adds `tiled[0, c]`.
-/
import proofs.«103029_g2000603537656407_pallasbulk_887_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The contraction's dimension numbers: left axis 1 against right axis 0; result axes (left 0, right 1). -/
abbrev dims := dot_S512x1792_S1792x640_S512x640_1_0_0_1_n_n

theorem lhs_row (j : S512x640.Idx) (q : dims.contr.Idx) : (dims.lhsIdx j q 0).val = (j 0).val := by
  unfold DotDims.lhsIdx
  rw [dif_neg (show ¬(0 : Fin S512x1792.rank) ∈ dims.lhsBatch by decide), dif_pos (show (0 : Fin S512x1792.rank) ∈ dims.lhsNonContracting by decide)]
  rfl
theorem lhs_contr (j : S512x640.Idx) (q : dims.contr.Idx) : (dims.lhsIdx j q 1).val = (q ⟨0, by decide⟩).val :=
  dims.lhsIdx_val_of_single rfl j q
theorem rhs_contr (j : S512x640.Idx) (q : dims.contr.Idx) : (dims.rhsIdx j q 0).val = (q ⟨0, by decide⟩).val :=
  dims.rhsIdx_val_of_single rfl j q
theorem rhs_col (j : S512x640.Idx) (q : dims.contr.Idx) : (dims.rhsIdx j q 1).val = (j 1).val := by
  unfold DotDims.rhsIdx
  rw [dif_neg (show ¬(1 : Fin S1792x640.rank) ∈ dims.rhsBatch by decide), dif_pos (show (1 : Fin S1792x640.rank) ∈ dims.rhsNonContracting by decide)]
  rfl

/-- The stored value at element (r, c) of the block. -/
theorem pay_apply (x0 : FVec Ideal S512x1792 .f32) (x1 : FVec Ideal S1792x640 .f32) (x2 : FVec Ideal S1x640 .f32) (r : Fin 512) (c : Fin 640) :
    k0_pay1 (F := Ideal) x0 x1 x2 (ix2 r c) = (∑ k : Fin 1792, x0 (ix2 r k) * x1 (ix2 k c)) + x2 (ix2 (0 : Fin 1) c) := by
  unfold k0_pay1
  rw [shapeCast_self, shapeCast_self]
  show (matmul dims none x0 x1 (constant (F := Ideal) S512x640 .f32 0x00000000#32)) (ix2 r c)
      + (broadcastTo S512x640 x2 broadcasts_S1x640_S512x640) (ix2 r c) = _
  refine congrArg₂ (· + ·) ?_ ?_
  · refine (Ideal.matmul_constant_zero_apply dims none x0 x1 (ix2 r c)).trans ?_
    rw [← Equiv.sum_comp (contrEquiv1 dims 1792 rfl rfl).symm]
    refine Finset.sum_congr rfl fun k _ => ?_
    have hk := contrEquiv1_symm_val dims 1792 rfl rfl k
    have el : dims.lhsIdx (ix2 r c) ((contrEquiv1 dims 1792 rfl rfl).symm k) = ix2 r k := funext fun a => Fin.ext (by
      match a with
      | ⟨0, _⟩ => exact lhs_row _ _
      | ⟨1, _⟩ => exact (lhs_contr _ _).trans hk)
    have er : dims.rhsIdx (ix2 r c) ((contrEquiv1 dims 1792 rfl rfl).symm k) = ix2 k c := funext fun a => Fin.ext (by
      match a with
      | ⟨0, _⟩ => exact (rhs_contr _ _).trans hk
      | ⟨1, _⟩ => exact rhs_col _ _)
    rw [el, er]
  · exact broadcastTo_apply x2 broadcasts_S1x640_S512x640 (ix2 r c) (ix2 (0 : Fin 1) c) (fun a => by
      match a with
      | ⟨0, _⟩ => rfl
      | ⟨1, _⟩ => rfl)

end Cert.KernelIdeal.Body

end
-- ==== Proof.Packing.lean ====
/-
  The packed layout, as pure functions of the three arguments, and that it changes nothing on the extended reals.
  The kernel views the batch [262144, 28] as [4096, 1792] (64 rows per packed row: lane `p · 28 + i` of packed row `r` is
  `x[64 r + p, i]`), multiplies by the block-diagonal weight [1792, 640] whose entry at (`p · 28 + i`, `q · 10 + o`) is
  `δ(p, q) · w[o, i]` (the Kronecker product of the 64 × 64 identity with the transposed weight), adds the bias tiled 64
  times along the lanes, and views the [4096, 640] result as [262144, 10]: element (`n`, `o`) is packed element
  (`n / 64`, `(n % 64) · 10 + o`). By `Affine.packed_sum` that element is `(∑ i < 28, x[n, i] · w[o, i]) + b[0, o]`.
-/
import proofs.«103029_g2000603537656407_pallasbulk_887_2_alg».proof.Proof.Gen.KernelIdeal
import proofs.«103029_g2000603537656407_pallasbulk_887_2_alg».proof.Proof.Affine
import Idealize.ShloMosaic.Lib.ValueIdx
import Idealize.ShloMosaic.Lib.Pipeline.Value

noncomputable section

open scoped BigOperators

namespace Cert.KernelIdeal.Packing

open Cert.KernelIdeal Cert.KernelIdeal.Gen Idealize.ShloMosaic Idealize.ShloMosaic.ValueIdx Cert.Affine

/-- The 64 × 64 identity as the host builds it: row number (plus a zero) compared with column number, the bit read as a float. -/
def eye : FVec Ideal S64x64 .f32 :=
  uitofp (F := Ideal) .f32 (cmpi .eq (addi (iotaInDim S64x64 32 0) (broadcastInDim S64x64 ![] bcast_S_S64x64 (constantI S_ 32 0#32))) (iotaInDim S64x64 32 1))

/-- Its entries: one on the diagonal, zero off it. -/
theorem eye_apply (p q : Fin 64) : eye (ix2 p q) = if p = q then (1 : EReal) else 0 := by
  have h : IntOp.cmpi .eq (IntOp.addi (BitVec.ofNat 32 p.val) 0#32) (BitVec.ofNat 32 q.val) = if p = q then 1#1 else 0#1 :=
    (by decide +kernel : ∀ p q : Fin 64, IntOp.cmpi .eq (IntOp.addi (BitVec.ofNat 32 p.val) 0#32) (BitVec.ofNat 32 q.val) = if p = q then 1#1 else 0#1) p q
  show (((IntOp.cmpi .eq (IntOp.addi (BitVec.ofNat 32 p.val) 0#32) (BitVec.ofNat 32 q.val)).toNat : ℝ) : EReal) = _
  rw [h]
  split_ifs <;> simp

/-- The block-diagonal weight: identity ⊗ transposed weight, as a [64, 28, 64, 10] product flattened to [1792, 640]. -/
def wide (w : FVec Ideal S10x28 .f32) : FVec Ideal S1792x640 .f32 :=
  shapeCast S1792x640
    (mulf (F := Ideal)
      (broadcastInDim S64x28x64x10 ![0, 1, 2, 3] bcast_S64x1x64x1_S64x28x64x10_0_1_2_3 (broadcastInDim S64x1x64x1 ![0, 2] bcast_S64x64_S64x1x64x1_0_2 eye))
      (broadcastInDim S64x28x64x10 ![0, 1, 2, 3] bcast_S1x28x1x10_S64x28x64x10_0_1_2_3 (broadcastInDim S1x28x1x10 ![1, 3] bcast_S28x10_S1x28x1x10_1_3
        (transpose S28x10 [1, 0] w transposes_S10x28_S28x10_1_0))))
    shapeCasts_S64x28x64x10_S1792x640

/-- Its entry at row `p · 28 + i`, column `q · 10 + o` is `δ(p, q) · w[o, i]`. -/
theorem wide_apply (w : FVec Ideal S10x28 .f32) (p : Fin 64) (i : Fin 28) (q : Fin 64) (o : Fin 10) (k : Fin 1792) (cc : Fin 640)
    (hk : k.val = p.val * 28 + i.val) (hc : cc.val = q.val * 10 + o.val) :
    wide w (ix2 k cc) = (if p = q then (1 : EReal) else 0) * w (ix2 o i) := by
  unfold wide
  refine (shapeCast_apply _ shapeCasts_S64x28x64x10_S1792x640 (ix2 k cc) (ix4 p i q o) ?_).trans ?_
  · rw [Shape.rowMajor_val_four, Shape.rowMajor_val_two]
    show ((p.val * 28 + i.val) * 64 + q.val) * 10 + o.val = k.val * 640 + cc.val
    rw [hk, hc]; omega
  · refine (mulf_apply _ _ _).trans (congrArg₂ (· * ·) ?_ ?_)
    · refine (broadcastInDim_apply _ _ _ (ix4 p i q o) (ix4 p (0 : Fin 1) q (0 : Fin 1)) (fun a => by
        match a with
        | ⟨0, _⟩ => rfl
        | ⟨1, _⟩ => rfl
        | ⟨2, _⟩ => rfl
        | ⟨3, _⟩ => rfl)).trans ?_
      refine (broadcastInDim_apply _ _ _ (ix4 p (0 : Fin 1) q (0 : Fin 1)) (ix2 p q) (fun a => by
        match a with
        | ⟨0, _⟩ => rfl
        | ⟨1, _⟩ => rfl)).trans ?_
      exact eye_apply p q
    · refine (broadcastInDim_apply _ _ _ (ix4 p i q o) (ix4 (0 : Fin 1) i (0 : Fin 1) o) (fun a => by
        match a with
        | ⟨0, _⟩ => rfl
        | ⟨1, _⟩ => rfl
        | ⟨2, _⟩ => rfl
        | ⟨3, _⟩ => rfl)).trans ?_
      refine (broadcastInDim_apply _ _ _ (ix4 (0 : Fin 1) i (0 : Fin 1) o) (ix2 i o) (fun a => by
        match a with
        | ⟨0, _⟩ => rfl
        | ⟨1, _⟩ => rfl)).trans ?_
      exact transpose_apply _ w _ (ix2 i o) (ix2 o i) (fun b => by
        match b with
        | ⟨0, _⟩ => rfl
        | ⟨1, _⟩ => rfl)

/-- The bias row repeated 64 times along the lanes. -/
def tiled (b : FVec Ideal S1x10 .f32) : FVec Ideal S1x640 .f32 :=
  shapeCast S1x640 (broadcastInDim S1x1x64x10 ![0, 1, 2, 3] bcast_S1x1x1x10_S1x1x64x10_0_1_2_3 (shapeCast S1x1x1x10 b shapeCasts_S1x10_S1x1x1x10))
    shapeCasts_S1x1x64x10_S1x640

/-- Its entry at lane `q · 10 + o` is `b[0, o]`. -/
theorem tiled_apply (b : FVec Ideal S1x10 .f32) (q : Fin 64) (o : Fin 10) (cc : Fin 640) (hc : cc.val = q.val * 10 + o.val) :
    tiled b (ix2 (0 : Fin 1) cc) = b (ix2 (0 : Fin 1) o) := by
  unfold tiled
  refine (shapeCast_apply _ shapeCasts_S1x1x64x10_S1x640 (ix2 (0 : Fin 1) cc) (ix4 (0 : Fin 1) (0 : Fin 1) q o) ?_).trans ?_
  · rw [Shape.rowMajor_val_four, Shape.rowMajor_val_two]
    show ((0 * 1 + 0) * 64 + q.val) * 10 + o.val = 0 * 640 + cc.val
    rw [hc]; omega
  · refine (broadcastInDim_apply _ _ _ (ix4 (0 : Fin 1) (0 : Fin 1) q o) (ix4 (0 : Fin 1) (0 : Fin 1) (0 : Fin 1) o) (fun a => by
      match a with
      | ⟨0, _⟩ => rfl
      | ⟨1, _⟩ => rfl
      | ⟨2, _⟩ => rfl
      | ⟨3, _⟩ => rfl)).trans ?_
    refine shapeCast_apply b shapeCasts_S1x10_S1x1x1x10 (ix4 (0 : Fin 1) (0 : Fin 1) (0 : Fin 1) o) (ix2 (0 : Fin 1) o) ?_
    rw [Shape.rowMajor_val_four, Shape.rowMajor_val_two]
    show 0 * 10 + o.val = ((0 * 1 + 0) * 1 + 0) * 10 + o.val
    omega

/-- The packed product plus the tiled bias, as one function of packed rows, wide weight and tiled bias. -/
def packedOut (xp : S4096x1792.Idx → EReal) (wd : S1792x640.Idx → EReal) (bt : S1x640.Idx → EReal) : S4096x640.Idx → EReal :=
  fun j => (∑ k : Fin 1792, xp (ix2 (j 0) k) * wd (ix2 k (j 1))) + bt (ix2 (0 : Fin 1) (j 1))

/-- UNPACKING: the [4096, 640] packed result of the packed batch, the block-diagonal weight and the tiled bias, viewed as
    [262144, 10], is `affine x w b`. -/
theorem unpack_eq (x : FVec Ideal S262144x28 .f32) (w : FVec Ideal S10x28 .f32) (b : FVec Ideal S1x10 .f32) :
    shapeCast S262144x10 (packedOut (shapeCast S4096x1792 x shapeCasts_S262144x28_S4096x1792) (wide w) (tiled b)) shapeCasts_S4096x640_S262144x10
      = affine x w b := by
  funext i
  obtain ⟨n, o, rfl⟩ : ∃ (n : Fin 262144) (o : Fin 10), i = ix2 n o := ⟨i 0, i 1, eq_ix2 i⟩
  have hn := n.isLt
  have ho := o.isLt
  obtain ⟨r, hr⟩ : ∃ r : Fin 4096, r.val = n.val / 64 := ⟨⟨n.val / 64, by omega⟩, rfl⟩
  obtain ⟨q, hq⟩ : ∃ q : Fin 64, q.val = n.val % 64 := ⟨⟨n.val % 64, by omega⟩, rfl⟩
  obtain ⟨cc, hcc⟩ : ∃ cc : Fin 640, cc.val = q.val * 10 + o.val := ⟨⟨q.val * 10 + o.val, by have := q.isLt; omega⟩, rfl⟩
  refine (shapeCast_apply _ shapeCasts_S4096x640_S262144x10 (ix2 n o) (ix2 r cc) ?_).trans ?_
  · rw [Shape.rowMajor_val_two, Shape.rowMajor_val_two]
    show r.val * 640 + cc.val = n.val * 10 + o.val
    omega
  · show (∑ k : Fin 1792, shapeCast S4096x1792 x shapeCasts_S262144x28_S4096x1792 (ix2 r k) * wide w (ix2 k cc)) + tiled b (ix2 (0 : Fin 1) cc)
        = (∑ k : Fin 28, x (ix2 n k) * w (ix2 o k)) + b (ix2 (0 : Fin 1) o)
    refine congrArg₂ (· + ·) ?_ (tiled_apply b q o cc hcc)
    refine packed_sum (fun k => shapeCast S4096x1792 x shapeCasts_S262144x28_S4096x1792 (ix2 r k)) (fun k => wide w (ix2 k cc)) q
      (fun k => x (ix2 n k)) (fun k => w (ix2 o k)) (fun k => ?_) (fun p k => ?_)
    · refine shapeCast_apply x shapeCasts_S262144x28_S4096x1792 (ix2 r (laneEquiv (q, k))) (ix2 n k) ?_
      rw [Shape.rowMajor_val_two, Shape.rowMajor_val_two]
      show n.val * 28 + k.val = r.val * 1792 + (q.val * 28 + k.val)
      omega
    · exact wide_apply w p k q o (laneEquiv (p, k)) cc rfl hcc

end Cert.KernelIdeal.Packing

end
-- ==== Proof.KernelArray.lean ====
/-
  The packed kernel's program, read as values. Before the kernel the host lays the batch out as 4096 packed rows, builds
  the block-diagonal weight and tiles the bias (`Packing`); the kernel walks the packed rows in 8 blocks of 512, at block `t`
  reading packed rows `512 t …`, the whole wide weight and the whole tiled bias, and writing packed rows `512 t …` of its
  output: block `t` of the ONE function `packedOut`; the 8 blocks cover the output; after the kernel the host views the
  [4096, 640] output as [262144, 10], which is `affine x w b` (`Packing.unpack_eq`).
-/
import proofs.«103029_g2000603537656407_pallasbulk_887_2_alg».proof.Defs
import proofs.«103029_g2000603537656407_pallasbulk_887_2_alg».proof.Proof.Gen.KernelIdeal.Frame
import proofs.«103029_g2000603537656407_pallasbulk_887_2_alg».proof.Proof.Affine
import proofs.«103029_g2000603537656407_pallasbulk_887_2_alg».proof.Proof.KernelBody
import proofs.«103029_g2000603537656407_pallasbulk_887_2_alg».proof.Proof.Packing
import Idealize.ShloMosaic.Lib.Pipeline.Value
import Idealize.ShloMosaic.Lib.StableHlo.Run

noncomputable section

open scoped BigOperators

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Cert.Affine Cert.KernelIdeal.Packing

variable (m : (ℓ : Loc nD τ sig) → Buf (Elt Ideal) ℓ) (ρ : Dev nD → PrngReg)

theorem zeros : (![0, 0] : Fin 2 → Nat) = fun _ => 0 := funext fun a => by fin_cases a <;> rfl

/-! ## What the host leaves for the kernel -/

/-- The kernel's first operand is the batch viewed as 4096 packed rows. -/
theorem packed_rows (c : Dev nD) : (V m c main_call0_v0 : S4096x1792.Idx → Elt Ideal .f32)
    = shapeCast S4096x1792 (m ((c : Thread nD τ).loc main_arg0)) shapeCasts_S262144x28_S4096x1792 := by
  show StableHlo.after hostOps0 (fun b => m (c, b)) (Proc.devRef .tc main_call0_v0) = _
  after_results
  rfl

/-- Its second operand is the block-diagonal weight. -/
theorem wide_weight (c : Dev nD) : (V m c main_call0_v8 : S1792x640.Idx → Elt Ideal .f32)
    = wide (m ((c : Thread nD τ).loc main_arg1)) := by
  show StableHlo.after hostOps0 (fun b => m (c, b)) (Proc.devRef .tc main_call0_v8) = _
  after_results
  rfl

/-- Its third operand is the tiled bias. -/
theorem tiled_bias (c : Dev nD) : (V m c main_call0_v11 : S1x640.Idx → Elt Ideal .f32)
    = tiled (m ((c : Thread nD τ).loc main_arg2)) := by
  show StableHlo.after hostOps0 (fun b => m (c, b)) (Proc.devRef .tc main_call0_v11) = _
  after_results
  rfl

/-! ## The kernel's output array -/

/-- The kernel's output as one function of the three arguments. -/
abbrev packed (c : Dev nD) : S4096x640.Idx → Elt Ideal .f32 :=
  packedOut (shapeCast S4096x1792 (m ((c : Thread nD τ).loc main_arg0)) shapeCasts_S262144x28_S4096x1792)
    (wide (m ((c : Thread nD τ).loc main_arg1))) (tiled (m ((c : Thread nD τ).loc main_arg2)))

/-- The block indices over the 8 grid points: the packed rows' and the output's block is the point, the wide weight's and
    the tiled bias's always block (0, 0). -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Element (r, k) of the packed rows' block at point `t` is packed element (512 t + r, k). -/
theorem rows_apply (c : Dev nD) (t : Fin cfg0.N) (y : S512x1792.Idx) (i : S4096x1792.Idx)
    (h0 : (i 0).val = t.val * 512 + (y 0).val) (h1 : (i 1).val = (y 1).val) :
    (iblk m c 0 t : Vec Ideal S512x1792 .f32) y
      = shapeCast S4096x1792 (m ((c : Thread nD τ).loc main_arg0)) shapeCasts_S262144x28_S4096x1792 i := by
  obtain ⟨e0, e1, -⟩ := block_index t
  refine Eq.trans ?_ (congrFun (packed_rows m c) i)
  unfold iblk
  rw [View.read_apply]
  show (V m c main_call0_v0 : S4096x1792.Idx → Elt Ideal .f32) _ = (V m c main_call0_v0 : S4096x1792.Idx → Elt Ideal .f32) _
  refine congrArg (V m c main_call0_v0 : S4096x1792.Idx → Elt Ideal .f32) ?_
  funext a
  apply Fin.ext
  match a with
  | ⟨0, _⟩ => show win0_0.index t (0 : Fin 2) * 512 + 1 * (y 0).val = (i 0).val; rw [e0, h0]; omega
  | ⟨1, _⟩ => show win0_0.index t (1 : Fin 2) * 1792 + 1 * (y 1).val = (i 1).val; rw [e1, h1]; omega

/-- The wide weight's block at every point is the wide weight. -/
theorem weight_apply (c : Dev nD) (t : Fin cfg0.N) (y : S1792x640.Idx) :
    (iblk m c 1 t : Vec Ideal S1792x640 .f32) y = wide (m ((c : Thread nD τ).loc main_arg1)) y := by
  obtain ⟨-, -, e0, e1, -⟩ := block_index t
  refine Eq.trans ?_ (congrFun (wide_weight m c) y)
  unfold iblk
  rw [View.read_apply]
  show (V m c main_call0_v8 : S1792x640.Idx → Elt Ideal .f32) _ = (V m c main_call0_v8 : S1792x640.Idx → Elt Ideal .f32) _
  refine congrArg (V m c main_call0_v8 : S1792x640.Idx → Elt Ideal .f32) ?_
  funext a
  apply Fin.ext
  match a with
  | ⟨0, _⟩ => show win0_1.index t (0 : Fin 2) * 1792 + 1 * (y 0).val = (y 0).val; rw [e0]; omega
  | ⟨1, _⟩ => show win0_1.index t (1 : Fin 2) * 640 + 1 * (y 1).val = (y 1).val; rw [e1]; omega

/-- The tiled bias's block at every point is the tiled bias. -/
theorem bias_apply (c : Dev nD) (t : Fin cfg0.N) (y : S1x640.Idx) :
    (iblk m c 2 t : Vec Ideal S1x640 .f32) y = tiled (m ((c : Thread nD τ).loc main_arg2)) y := by
  obtain ⟨-, -, -, -, e0, e1, -⟩ := block_index t
  refine Eq.trans ?_ (congrFun (tiled_bias m c) y)
  unfold iblk
  rw [View.read_apply]
  show (V m c main_call0_v11 : S1x640.Idx → Elt Ideal .f32) _ = (V m c main_call0_v11 : S1x640.Idx → Elt Ideal .f32) _
  refine congrArg (V m c main_call0_v11 : S1x640.Idx → Elt Ideal .f32) ?_
  funext a
  apply Fin.ext
  match a with
  | ⟨0, _⟩ => show win0_2.index t (0 : Fin 2) * 1 + 1 * (y 0).val = (y 0).val; rw [e0]; omega
  | ⟨1, _⟩ => show win0_2.index t (1 : Fin 2) * 640 + 1 * (y 1).val = (y 1).val; rw [e1]; omega

/-- The body's stored value on blocks that are packed rows `base …` of `XP`, the whole of `WD` and the whole of `BT`, at
    element `j`, is `packedOut XP WD BT` at row `base + j 0`, column `j 1`. -/
theorem stored_eq (x0 : FVec Ideal S512x1792 .f32) (x1 : FVec Ideal S1792x640 .f32) (x2 : FVec Ideal S1x640 .f32)
    (XP : S4096x1792.Idx → EReal) (WD : S1792x640.Idx → EReal) (BT : S1x640.Idx → EReal)
    (j : S512x640.Idx) (i : S4096x640.Idx)
    (hx : ∀ k : Fin 1792, x0 (ix2 (j 0) k) = XP (ix2 (i 0) k)) (hw : ∀ k : Fin 1792, x1 (ix2 k (j 1)) = WD (ix2 k (i 1)))
    (hb : x2 (ix2 (0 : Fin 1) (j 1)) = BT (ix2 (0 : Fin 1) (i 1))) :
    k0_pay1 (F := Ideal) x0 x1 x2 j = packedOut XP WD BT i := by
  rw [eq_ix2 j]
  refine (Body.pay_apply x0 x1 x2 (j 0) (j 1)).trans ?_
  unfold packedOut
  rw [hb]
  exact congrArg (· + _) (Finset.sum_congr rfl fun k _ => by rw [hx k, hw k])

/-- WHAT POINT `t` WRITES BACK is block `t` of `packed`. -/
theorem flushed_eq (c : Dev nD) (t : Fin cfg0.N) :
    (dats m 0 c).flushed 3 t = ((cfg0.win 3).blk t).view.read (Elt Ideal) (packed m c) := by
  show (cfg0.win 3).cut (grid0.coords t) ((dats m 0 c).after 3 t) = _
  rw [after0_3]
  unfold out0_3
  rw [View.canon_unit_zero zeros]
  simp only [View.ld_unit_zero (S := S512x1792) zeros, View.ld_unit_zero (S := S1792x640) zeros, View.ld_unit_zero (S := S1x640) zeros]
  obtain ⟨-, -, -, -, -, -, e0, e1⟩ := block_index t
  funext j
  show k0_pay1 (F := Ideal) (iblk m c 0 t) (iblk m c 1 t) (iblk m c 2 t) j = packed m c (((cfg0.win 3).blk t).view.emb j)
  have c0 : ((((cfg0.win 3).blk t).view.emb j) 0).val = t.val * 512 + (j 0).val := by
    show win0_3.index t (0 : Fin 2) * 512 + 1 * (j 0).val = _; rw [e0]; omega
  have c1 : ((((cfg0.win 3).blk t).view.emb j) 1).val = (j 1).val := by
    show win0_3.index t (1 : Fin 2) * 640 + 1 * (j 1).val = _; rw [e1]; omega
  refine stored_eq (iblk m c 0 t) (iblk m c 1 t) (iblk m c 2 t)
    (shapeCast S4096x1792 (m ((c : Thread nD τ).loc main_arg0)) shapeCasts_S262144x28_S4096x1792)
    (wide (m ((c : Thread nD τ).loc main_arg1))) (tiled (m ((c : Thread nD τ).loc main_arg2))) j (((cfg0.win 3).blk t).view.emb j) ?_ ?_ ?_
  · intro k
    exact rows_apply m c t (ix2 (j 0) k) (ix2 ((((cfg0.win 3).blk t).view.emb j) 0) k) c0 rfl
  · intro k
    refine (weight_apply m c t (ix2 k (j 1))).trans (congrArg _ ?_)
    funext a; apply Fin.ext
    match a with
    | ⟨0, _⟩ => rfl
    | ⟨1, _⟩ => exact c1.symm
  · refine (bias_apply m c t (ix2 (0 : Fin 1) (j 1))).trans (congrArg _ ?_)
    funext a; apply Fin.ext
    match a with
    | ⟨0, _⟩ => rfl
    | ⟨1, _⟩ => exact c1.symm

/-- An index of the output is in point `t`'s block iff each coordinate is in the block's range on its axis. -/
theorem mem_block (t : Fin cfg0.N) (i : S4096x640.Idx) :
    i ∈ ((cfg0.win 3).blk t).view.set ↔ ∀ a : Fin 2, win0_3.index t a * S512x640.size a ≤ (i a).val ∧ (i a).val < win0_3.index t a * S512x640.size a + S512x640.size a := by
  show i ∈ ((View.whole main_call0_v12).slice (win0_3.rect t)).set ↔ _
  rw [View.set_slice_whole, Rect.mem_set_unit]
  exact Iff.rfl

/-- Packed row `r` of the output lies in the block of point `r / 512`. -/
theorem covered (i : S4096x640.Idx) : ∃ t : Fin cfg0.N, (cfg0.win 3).flush t = true ∧ i ∈ ((cfg0.win 3).blk t).view.set := by
  have hN : cfg0.N = 8 := N_0
  have hi0 : (i 0).val < 4096 := (i 0).isLt
  have hi1 : (i 1).val < 640 := (i 1).isLt
  refine ⟨⟨(i 0).val / 512, by rw [hN]; omega⟩, flush0_3 _, ?_⟩
  rw [mem_block]
  obtain ⟨-, -, -, -, -, -, e0, e1⟩ := block_index ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 640 ≤ (i 1).val ∧ (i 1).val < win0_3.index _ (1 : Fin 2) * 640 + 640
    rw [e1]; omega

/-- THE KERNEL'S OUTPUT ARRAY after the run is `packed`. -/
theorem final (c : Dev nD) : (dats m 0 c).arrAt 3 cfg0.N = packed m c :=
  (dats m 0 c).arrAt_eq_of_cover 3 (packed m c) (fun t _ => flushed_eq m c t) covered

/-! ## After the kernel -/

/-- The program's result: the host's last line views the kernel's output as [262144, 10]. -/
theorem result_eq (c : Dev nD) : (Pipeline.afterTail₀ cfgs (dats m) 0 (V0 m) [hostOps1] c main_v0 : S262144x10.Idx → Elt Ideal .f32)
    = affine (m ((c : Thread nD τ).loc main_arg0)) (m ((c : Thread nD τ).loc main_arg1)) (m ((c : Thread nD τ).loc main_arg2)) := by
  refine Eq.trans ?_ (unpack_eq (m ((c : Thread nD τ).loc main_arg0)) (m ((c : Thread nD τ).loc main_arg1)) (m ((c : Thread nD τ).loc main_arg2)))
  have e := (Pipeline.withArrays_arr spec0 launch0.win.arr_inj c (V0 m c) (fun w => (dats m 0 c).arrAt w cfg0.N) 3).trans (final m c)
  unfold Pipeline.afterTail₀
  show StableHlo.after hostOps1 _ (Proc.devRef .tc main_v0) = _
  after_results
  show shapeCast S262144x10 (Pipeline.withArrays spec0 c (V0 m c) (fun w => (dats m 0 c).arrAt w cfg0.N) (Proc.devRef .tc (Pipeline.arrRef spec0 3)))
      shapeCasts_S4096x640_S262144x10 = _
  rw [e]

/-- The run, read: the result array at `affine` of the argument arrays, the arguments unchanged. -/
theorem run : θ_run defs (onTc (τ := τ) (main (F := Ideal))) ⟨m, fun _ => 0, ρ⟩ fun r => ∀ c : Dev nD,
      r.2.mem ((c : Thread nD τ).loc main_v0)
        = affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Arr

end
-- ==== Proof.lean ====
/-
  A linear layer `out = x · wᵀ + b` over a batch of 262144 rows of 28 features, 10 outputs, computed two ways.
  The reference tiles the batch by 2048 rows and contracts each block of rows with the weight directly. The kernel packs
  64 batch rows into one row of 1792 lanes, multiplies by the block-diagonal weight (identity ⊗ wᵀ, 1792 × 640), adds the
  bias tiled 64 times, and unpacks. On the extended reals both results are, element by element,
  `(∑ k < 28, x[n, k] · w[o, k]) + b[0, o]` (`Affine.affine`): for the reference by reading the contraction at an index, for
  the kernel because each off-diagonal block of the wide weight contributes products with zero, which vanish for every
  extended real, and the diagonal block contributes products with one (`Affine.packed_sum`, `Packing.unpack_eq`). The
  precondition is not used by the value equation. The idealization rewrote nothing, so `preserves` has nothing to state;
  the three frames are the generated ones.
-/
import proofs.«103029_g2000603537656407_pallasbulk_887_2_alg».proof.Defs
import proofs.«103029_g2000603537656407_pallasbulk_887_2_alg».proof.Proof.Gen.Kernel
import proofs.«103029_g2000603537656407_pallasbulk_887_2_alg».proof.Proof.Gen.Kernel.Frame
import proofs.«103029_g2000603537656407_pallasbulk_887_2_alg».proof.Proof.Gen.KernelIdeal
import proofs.«103029_g2000603537656407_pallasbulk_887_2_alg».proof.Proof.Gen.KernelIdeal.Frame
import proofs.«103029_g2000603537656407_pallasbulk_887_2_alg».proof.Proof.Gen.ReferenceIdeal
import proofs.«103029_g2000603537656407_pallasbulk_887_2_alg».proof.Proof.Gen.ReferenceIdeal.Frame
import proofs.«103029_g2000603537656407_pallasbulk_887_2_alg».proof.Proof.Gen.Pre_finite_inputs
import proofs.«103029_g2000603537656407_pallasbulk_887_2_alg».proof.Proof.RefArray
import proofs.«103029_g2000603537656407_pallasbulk_887_2_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- Both idealized programs end with the result array at `affine` of their argument arrays; the arguments agree. -/
theorem algebraic : Cert.algebraic_KernelIdeal_ReferenceIdeal := by
  intro m ρ m' ρ' _ hagree
  refine ⟨fun c => Cert.Affine.affine (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.Arr.run m ρ, ?_⟩
  refine (θ_run Cert.ReferenceIdeal.defs _ _).mono (fun _ h c => ⟨(h c).1.trans ?_, (h c).2⟩) (Cert.ReferenceIdeal.Arr.run m' ρ')
  show Cert.Affine.affine (m' ((c : Thread Cert.ReferenceIdeal.nD Cert.ReferenceIdeal.τ).loc Cert.ReferenceIdeal.main_arg0))
      (m' ((c : Thread Cert.ReferenceIdeal.nD Cert.ReferenceIdeal.τ).loc Cert.ReferenceIdeal.main_arg1))
      (m' ((c : Thread Cert.ReferenceIdeal.nD Cert.ReferenceIdeal.τ).loc Cert.ReferenceIdeal.main_arg2)) = _
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
